-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSumAssoc.lean ====
/-
  A general fact about finite double sums of extended reals, used to re-associate a product of three matrices.
  On the extended reals multiplication does not distribute over addition at the infinities, so the interchange
  below is stated for REAL entries (each entry the image of a real number): then both sides are the image of
  the same real double sum.
-/
import Idealize.ShloMosaic.PureOps.Ideal

namespace ERealSums

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

/-- A product of real entries is a real entry. -/
theorem mul_real {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- RE-ASSOCIATING A TRIPLE PRODUCT: for a row `a`, a matrix `x` and a column `w` of real entries,
    `∑ₖ (∑ⱼ aⱼ·xⱼₖ)·wₖ = ∑ⱼ aⱼ·(∑ₖ xⱼₖ·wₖ)` — the (row · matrix) · column product is the row · (matrix · column)
    product. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun j _ => Finset.sum_congr rfl fun k _ => by ring

end ERealSums
-- ==== Proof.GraphLayerSpec.lean ====
/-
  One graph-convolution layer on the extended reals.

  For a feature matrix `x` of 10000 nodes by 128 features, a dense 10000 by 10000 adjacency matrix `A`, a
  128 by 128 weight matrix `W` and a bias `b` of 128 entries, the layer's output at node `r` and feature `f` is

      sigmoid( (A · x · W)(r, f) + b(f) ),      sigmoid(z) = 1 / (1 + e^(-z)).

  The triple product can be bracketed two ways. Aggregating first, `(A · x) · W`, the entry is
  `∑ₖ (∑ⱼ A(r,j) · x(j,k)) · W(k,f)`; transforming first, `A · (x · W)`, it is `∑ⱼ A(r,j) · (∑ₖ x(j,k) · W(k,f))`.
  On the extended reals a product does not distribute over a sum at the infinities, so the two bracketings are
  proved equal for REAL entries of `A`, `x` and `W` (the bias may be any extended real: it is added after the
  product on both sides).
-/
import Idealize.ShloMosaic.PureOps.Ideal
import Idealize.ShloMosaic.Lib.ValueIdx
import proofs.«117318_g43928925503630_cont_8to1_b_1634_10_alg».proof.Proof.LibSumAssoc

noncomputable section

namespace GraphLayer

open Idealize.ShloMosaic Idealize.ShloMosaic.ValueIdx
open scoped BigOperators

/-- Entry `(r, f)` of `(A · x) · W`: row `r` of `A` aggregates the nodes' features, then the weights are applied. -/
def aggregateFirst (x : (⟨2, ![10000, 128]⟩ : Shape).Idx → EReal) (A : (⟨2, ![10000, 10000]⟩ : Shape).Idx → EReal)
    (W : (⟨2, ![128, 128]⟩ : Shape).Idx → EReal) (r : Fin 10000) (f : Fin 128) : EReal :=
  ∑ k : Fin 128, (∑ j : Fin 10000, A (ix2 r j) * x (ix2 j k)) * W (ix2 k f)

/-- Entry `(r, f)` of `A · (x · W)`: every node's features are transformed by the weights, then row `r` of `A`
    aggregates them. -/
def transformFirst (x : (⟨2, ![10000, 128]⟩ : Shape).Idx → EReal) (A : (⟨2, ![10000, 10000]⟩ : Shape).Idx → EReal)
    (W : (⟨2, ![128, 128]⟩ : Shape).Idx → EReal) (r : Fin 10000) (f : Fin 128) : EReal :=
  ∑ j : Fin 10000, A (ix2 r j) * ∑ k : Fin 128, x (ix2 j k) * W (ix2 k f)

/-- For real entries the two bracketings of the triple product agree, entry by entry. -/
theorem aggregateFirst_eq_transformFirst (x : (⟨2, ![10000, 128]⟩ : Shape).Idx → EReal)
    (A : (⟨2, ![10000, 10000]⟩ : Shape).Idx → EReal) (W : (⟨2, ![128, 128]⟩ : Shape).Idx → EReal)
    (hx : ∀ i, ∃ v : ℝ, x i = v) (hA : ∀ i, ∃ v : ℝ, A i = v) (hW : ∀ i, ∃ v : ℝ, W i = v)
    (r : Fin 10000) (f : Fin 128) : aggregateFirst x A W r f = transformFirst x A W r f :=
  ERealSums.sum_mul_sum_assoc (fun j : Fin 10000 => A (ix2 r j)) (fun (j : Fin 10000) (k : Fin 128) => x (ix2 j k))
    (fun k : Fin 128 => W (ix2 k f)) (fun j => hA _) (fun j k => hx _) (fun k => hW _)

/-- The layer's output at node `r`, feature `f`, with the product bracketed `(A · x) · W`. -/
def outputAt (x : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal) (r : Fin 10000) (f : Fin 128) : EReal :=
  Ideal.logistic (aggregateFirst x A W r f + b (ix1 f))

/-- The layer's whole output array. -/
def output (x : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal) :
    (⟨2, ![10000, 128]⟩ : Shape).Idx → EReal :=
  fun i => outputAt x A W b (i 0) (i 1)

theorem output_ix2 (x : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal) (r : Fin 10000) (f : Fin 128) :
    output x A W b (ix2 r f) = outputAt x A W b r f := rfl

/-- With real entries the output is the same sigmoid of the product bracketed `A · (x · W)`. -/
theorem outputAt_eq_transformFirst (x : (⟨2, ![10000, 128]⟩ : Shape).Idx → EReal)
    (A : (⟨2, ![10000, 10000]⟩ : Shape).Idx → EReal) (W : (⟨2, ![128, 128]⟩ : Shape).Idx → EReal)
    (b : (⟨1, ![128]⟩ : Shape).Idx → EReal)
    (hx : ∀ i, ∃ v : ℝ, x i = v) (hA : ∀ i, ∃ v : ℝ, A i = v) (hW : ∀ i, ∃ v : ℝ, W i = v)
    (r : Fin 10000) (f : Fin 128) :
    outputAt x A W b r f = Ideal.logistic (transformFirst x A W r f + b (ix1 f)) := by
  unfold outputAt
  rw [aggregateFirst_eq_transformFirst x A W hx hA hW r f]

end GraphLayer

end
-- ==== Proof.FiniteEntries.lean ====
/-
  From the precondition to real entries.

  The precondition says of each float argument that every entry's absolute value is below +∞, all four statements
  joined by "and". An extended real whose absolute value `max z (-z)` is below +∞ is neither infinity, so it is
  a real number. Hence every entry of the feature matrix, of the adjacency matrix and of the weight matrix is real
  (the bias's entries are too, but nothing here needs that).
-/
import proofs.«117318_g43928925503630_cont_8to1_b_1634_10_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.RealEntries

open Cert.Pre_finite_inputs Idealize.ShloMosaic

variable [Facts]

/-- An extended real with `|z| < +∞` (the comparison's bit is one) is a real number. -/
theorem real_of_abs_lt_top (z : EReal)
    (h : Ideal.cmp .olt (max z (-z)) (Ideal.ofBits .f32 0x7F800000#32) = 1#1) : ∃ r : ℝ, z = r := by
  have htop : Ideal.ofBits .f32 0x7F800000#32 = ⊤ := by simp [Ideal.ofBits, Ideal.ieee]
  rw [htop] at h
  induction z using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- Under the precondition every entry of the first three arguments is a real number. -/
theorem entries_real (x0 : FVec Ideal S10000x128 .f32) (x1 : FVec Ideal S10000x10000 .f32)
    (x2 : FVec Ideal S128x128 .f32) (x3 : FVec Ideal S128 .f32)
    (h : fn (F := Ideal) x0 x1 x2 x3 = fun _ => 1#1) :
    (∀ i, ∃ r : ℝ, x0 i = r) ∧ (∀ i, ∃ r : ℝ, x1 i = r) ∧ (∀ i, ∃ r : ℝ, x2 i = r) := by
  have h0 := congrFun h ValueIdx.ix0
  dsimp only [fn, fn_part1] at h0
  obtain ⟨h012, -⟩ := IntOp.andi_eq_one.mp h0
  obtain ⟨h01, hx2⟩ := IntOp.andi_eq_one.mp h012
  obtain ⟨hx0, hx1⟩ := IntOp.andi_eq_one.mp h01
  exact ⟨fun i => real_of_abs_lt_top (x0 i) (Host.reduce_andi_all _ _ _ _ _ hx0 i),
    fun i => real_of_abs_lt_top (x1 i) (Host.reduce_andi_all _ _ _ _ _ hx1 i),
    fun i => real_of_abs_lt_top (x2 i) (Host.reduce_andi_all _ _ _ _ _ hx2 i)⟩

end Cert.Pre_finite_inputs.RealEntries

end
-- ==== Proof.ReferenceRows.lean ====
/-
  The reference, entry by entry.

  The reference multiplies the features by the weights first (10000 by 128 times 128 by 128), then the adjacency
  matrix by that product, adds the bias to every row and takes `1 / (1 + e^(-z))` of each entry. Read at node
  `r` and feature `f` this is `1 / (1 + e^(-z))` at `z = ∑ⱼ A(r,j) · (∑ₖ x(j,k) · W(k,f)) + b(f)`: the sigmoid, spelt
  out, of the triple product bracketed `A · (x · W)`. With real entries of `x`, `A`, `W` that is the layer's output
  as the specification states it (the product bracketed the other way).
-/
import proofs.«117318_g43928925503630_cont_8to1_b_1634_10_alg».proof.Proof.Gen.ReferenceIdeal.Read
import proofs.«117318_g43928925503630_cont_8to1_b_1634_10_alg».proof.Proof.GraphLayerSpec

noncomputable section

namespace Cert.ReferenceIdeal.Rows

open Cert.ReferenceIdeal Cert.ReferenceIdeal.Gen Cert.ReferenceIdeal.Read Idealize.ShloMosaic Idealize.ShloMosaic.ValueIdx
open scoped BigOperators

variable [Facts]

/-- The f32 word of 1.0 denotes the number one. -/
theorem word_one : Ideal.ofBits .f32 0x3F800000#32 = 1 := by
  simp [Ideal.ofBits, Ideal.ieee, -EReal.coe_mul]; norm_num

/-- The outer product's operands at `(r, f)`: row `r` of `A`, column `f` of `x · W`. -/
theorem outer_left (r : Fin 10000) (f : Fin 128) (j : Fin 10000) : lidx_main_v1 (ix2 r f) j = ix2 r j :=
  funext fun a => Fin.ext (by match a with | ⟨0, _⟩ => rfl | ⟨1, _⟩ => rfl)
theorem outer_right (r : Fin 10000) (f : Fin 128) (j : Fin 10000) : ridx_main_v1 (ix2 r f) j = ix2 j f :=
  funext fun a => Fin.ext (by match a with | ⟨0, _⟩ => rfl | ⟨1, _⟩ => rfl)
/-- The inner product's operands at `(j, f)`: row `j` of `x`, column `f` of `W`. -/
theorem inner_left (j : Fin 10000) (f : Fin 128) (k : Fin 128) : lidx_main_v0 (ix2 j f) k = ix2 j k :=
  funext fun a => Fin.ext (by match a with | ⟨0, _⟩ => rfl | ⟨1, _⟩ => rfl)
theorem inner_right (j : Fin 10000) (f : Fin 128) (k : Fin 128) : ridx_main_v0 (ix2 j f) k = ix2 k f :=
  funext fun a => Fin.ext (by match a with | ⟨0, _⟩ => rfl | ⟨1, _⟩ => rfl)
/-- The bias spread over the rows is read at the feature's coordinate. -/
theorem bias_index (r : Fin 10000) (f : Fin 128) : idx_main_v2 (idx_main_v3 (ix2 r f)) = ix1 f :=
  funext fun a => Fin.ext (by match a with | ⟨0, _⟩ => rfl)

/-- The reference's result at `(r, f)`: the sigmoid of the product bracketed `A · (x · W)`, plus the bias. -/
theorem result_apply (x : (⟨S10000x128, .f32⟩ : BufTy).Contents (Elt Ideal)) (A : (⟨S10000x10000, .f32⟩ : BufTy).Contents (Elt Ideal))
    (W : (⟨S128x128, .f32⟩ : BufTy).Contents (Elt Ideal)) (b : (⟨S128, .f32⟩ : BufTy).Contents (Elt Ideal))
    (r : Fin 10000) (f : Fin 128) :
    val_main_v10 (F := Ideal) x A W b (ix2 r f) = Ideal.logistic (GraphLayer.transformFirst x A W r f + b (ix1 f)) := by
  rw [val_main_v10_apply, val_main_v9_apply, val_main_cst_0_apply, val_main_v8_apply, val_main_v7_apply, val_main_cst_apply,
    val_main_v6_apply, val_main_v5_apply, val_main_v4_apply, val_main_v1_apply, val_main_v3_apply, val_main_v2_apply, bias_index]
  simp only [outer_left, outer_right, val_main_v0_apply, inner_left, inner_right, Ideal.ofBits_def, word_one]
  rfl

/-- With real entries of `x`, `A` and `W` the reference's result is the layer's output. -/
theorem result_eq_output (x : (⟨S10000x128, .f32⟩ : BufTy).Contents (Elt Ideal)) (A : (⟨S10000x10000, .f32⟩ : BufTy).Contents (Elt Ideal))
    (W : (⟨S128x128, .f32⟩ : BufTy).Contents (Elt Ideal)) (b : (⟨S128, .f32⟩ : BufTy).Contents (Elt Ideal))
    (hx : ∀ i, ∃ v : ℝ, x i = v) (hA : ∀ i, ∃ v : ℝ, A i = v) (hW : ∀ i, ∃ v : ℝ, W i = v) :
    val_main_v10 (F := Ideal) x A W b = GraphLayer.output x A W b := by
  funext i
  obtain ⟨r, f, rfl⟩ : ∃ (r : Fin 10000) (f : Fin 128), i = ix2 r f := ⟨i 0, i 1, eq_ix2 i⟩
  rw [result_apply, GraphLayer.output_ix2, GraphLayer.outputAt_eq_transformFirst x A W b hx hA hW r f]

end Cert.ReferenceIdeal.Rows

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.KernelPoint.lean ====
/-
  What the kernel's body computes for one slab of 400 rows of the adjacency matrix, entry by entry.

  The body multiplies the slab (400 by 10000) with the whole feature matrix (10000 by 128), multiplies the result
  (400 by 128) with the weights (128 by 128), adds the bias row to every row and applies the sigmoid. On the
  extended reals the two conversions to a narrower float format are the identity and a matrix product into a
  zero accumulator is the plain sum of products, so at row `p` of the slab and feature `f` the body's result is

      sigmoid( ∑ₖ (∑ⱼ a(p,j) · x(j,k)) · w(k,f) + b(0,f) ).
-/
import proofs.«117318_g43928925503630_cont_8to1_b_1634_10_alg».proof.Proof.Gen.KernelIdeal.Skeleton
import proofs.«117318_g43928925503630_cont_8to1_b_1634_10_alg».proof.Proof.LibInnerProducts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Point

open Cert.KernelIdeal Cert.KernelIdeal.Gen Idealize.ShloMosaic Idealize.ShloMosaic.ValueIdx
open scoped BigOperators

variable [Facts]

/-- The body's result at row `p` of the slab and feature `f`. -/
theorem payload_apply (a : FVec Ideal S400x10000 .f32) (x : FVec Ideal S10000x128 .f32) (w : FVec Ideal S128x128 .f32)
    (b : FVec Ideal S1x128 .f32) (p : Fin 400) (f : Fin 128) :
    k0_pay1 (F := Ideal) a x w b (ix2 p f)
      = Ideal.logistic ((∑ k : Fin 128, (∑ j : Fin 10000, a (ix2 p j) * x (ix2 j k)) * w (ix2 k f)) + b (ix2 (0 : Fin 1) f)) := by
  unfold k0_pay1
  show Ideal.logistic (matmul dot_S400x128_S128x128_S400x128_1_0_0_1_n_n none
        (matmul dot_S400x10000_S10000x128_S400x128_1_0_0_1_n_n none (truncf .bf16 a bitsLt_bf16_f32) (truncf .bf16 x bitsLt_bf16_f32)
          (constant (F := Ideal) S400x128 .f32 0x00000000#32)) w (constant (F := Ideal) S400x128 .f32 0x00000000#32) (ix2 p f)
      + broadcastTo S400x128 (shapeCast S1x128 b shapeCasts_S1x128_S1x128) broadcasts_S1x128_S400x128 (ix2 p f)) = _
  rw [shapeCast_self, broadcastTo_1b_ab_apply]
  rw [InnerProducts.matmul_zero_apply dot_S400x128_S128x128_S400x128_1_0_0_1_n_n rfl none _ w p f]
  refine congrArg (fun z => Ideal.logistic (z + b (ix2 (0 : Fin 1) f))) (Finset.sum_congr rfl fun k _ => ?_)
  rw [InnerProducts.matmul_zero_apply dot_S400x10000_S10000x128_S400x128_1_0_0_1_n_n rfl none _ _ p k]
  rfl

end Cert.KernelIdeal.Point

end
-- ==== Proof.KernelArray.lean ====
/-
  From the slabs to the whole output array.

  The grid has 25 points. At point `t` the body sees rows `400·t … 400·t + 399` of the adjacency matrix (all 10000
  columns), the whole feature matrix, the whole weight matrix and the bias as one row, and writes rows
  `400·t … 400·t + 399` of the output. So row `p` of slab `t` is row `400·t + p` of the layer's output: the entry the
  body computes there (`Point.payload_apply`) is the specification's entry at `(400·t + p, f)`. The 25 slabs tile the
  10000 rows, hence the output array after the run is the layer's output of the argument arrays.
-/
import proofs.«117318_g43928925503630_cont_8to1_b_1634_10_alg».proof.Proof.Gen.KernelIdeal.Value
import proofs.«117318_g43928925503630_cont_8to1_b_1634_10_alg».proof.Proof.KernelPoint
import proofs.«117318_g43928925503630_cont_8to1_b_1634_10_alg».proof.Proof.GraphLayerSpec
import Idealize.ShloMosaic.Lib.Pipeline.Value
import Idealize.ShloMosaic.Lib.StableHlo.Run
import Idealize.ShloMosaic.Lib.ValueLayout

noncomputable section

namespace Cert.KernelIdeal.Slabs

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`: the adjacency slab and the output slab are block `t` along the rows,
    every other window is its whole array (decided over the 25 points). -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer's output of the argument arrays as launched. -/
abbrev layerOutput (c : Dev nD) : S10000x128.Idx → EReal :=
  GraphLayer.output (m ((c : Thread nD τ).loc main_arg0)) (m ((c : Thread nD τ).loc main_arg1))
    (m ((c : Thread nD τ).loc main_arg2)) (m ((c : Thread nD τ).loc main_arg3))

/-- Row `p` of the adjacency slab at point `t` is row `400·t + p` of the adjacency matrix. -/
theorem slab_apply (c : Dev nD) (t : Fin cfg0.N) (p : Fin 400) (j : Fin 10000) (r : Fin 10000) (hr : r.val = 400 * t.val + p.val) :
    (iblk m c 1 t : Vec Ideal S400x10000 .f32) (ix2 p j)
      = (m ((c : Thread nD τ).loc main_arg1) : S10000x10000.Idx → Elt Ideal .f32) (ix2 r j) := by
  obtain ⟨-, -, e0, e1, -⟩ := block_indices t
  unfold iblk
  rw [View.read_apply]
  show V m c main_arg1 _ = _
  rw [V_main_arg1 m c]
  congr 1
  funext a
  apply Fin.ext
  match a with
  | ⟨0, _⟩ => show win0_1.index t (0 : Fin 2) * 400 + 1 * p.val = r.val; rw [e0, hr]; omega
  | ⟨1, _⟩ => show win0_1.index t (1 : Fin 2) * 10000 + 1 * j.val = j.val; rw [e1]; omega

/-- The feature window's block is the whole feature matrix at every point. -/
theorem features_apply (c : Dev nD) (t : Fin cfg0.N) (j : Fin 10000) (k : Fin 128) :
    (iblk m c 0 t : Vec Ideal S10000x128 .f32) (ix2 j k)
      = (m ((c : Thread nD τ).loc main_arg0) : S10000x128.Idx → Elt Ideal .f32) (ix2 j k) := by
  obtain ⟨e0, e1, -⟩ := block_indices t
  unfold iblk
  rw [View.read_apply]
  show V m c main_arg0 _ = _
  rw [V_main_arg0 m c]
  congr 1
  funext a
  apply Fin.ext
  match a with
  | ⟨0, _⟩ => show win0_0.index t (0 : Fin 2) * 10000 + 1 * j.val = j.val; rw [e0]; omega
  | ⟨1, _⟩ => show win0_0.index t (1 : Fin 2) * 128 + 1 * k.val = k.val; rw [e1]; omega

/-- The weight window's block is the whole weight matrix at every point. -/
theorem weights_apply (c : Dev nD) (t : Fin cfg0.N) (k : Fin 128) (f : Fin 128) :
    (iblk m c 2 t : Vec Ideal S128x128 .f32) (ix2 k f)
      = (m ((c : Thread nD τ).loc main_arg2) : S128x128.Idx → Elt Ideal .f32) (ix2 k f) := by
  obtain ⟨-, -, -, -, e0, e1, -⟩ := block_indices t
  unfold iblk
  rw [View.read_apply]
  show V m c main_arg2 _ = _
  rw [V_main_arg2 m c]
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * f.val = f.val; rw [e1]; omega

/-- The bias window's array is the bias vector laid out as one row (the host operation before the region). -/
theorem bias_row (c : Dev nD) :
    (V m c main_v0 : S1x128.Idx → Elt Ideal .f32)
      = shapeCast S1x128 (m ((c : Thread nD τ).loc main_arg3) : S128.Idx → Elt Ideal .f32) shapeCasts_S128_S1x128 := by
  dsimp only [Gen.V, Gen.hostOps0]
  after_results
  rfl

/-- The bias window's block is that row at every point: its entry `(0, f)` is the bias's entry `f`. -/
theorem bias_apply (c : Dev nD) (t : Fin cfg0.N) (f : Fin 128) :
    (iblk m c 3 t : Vec Ideal S1x128 .f32) (ix2 (0 : Fin 1) f)
      = (m ((c : Thread nD τ).loc main_arg3) : S128.Idx → Elt Ideal .f32) (ix1 f) := by
  obtain ⟨-, -, -, -, -, -, e0, e1, -⟩ := block_indices t
  unfold iblk
  rw [View.read_apply]
  show V m c main_v0 _ = _
  rw [bias_row m c]
  refine Eq.trans (congrArg _ ?_) (shapeCast_a_1a_apply _ shapeCasts_S128_S1x128 (0 : Fin 1) f)
  funext a
  apply Fin.ext
  match a with
  | ⟨0, _⟩ => show win0_3.index t (0 : Fin 2) * 1 + 1 * 0 = 0; rw [e0]
  | ⟨1, _⟩ => show win0_3.index t (1 : Fin 2) * 128 + 1 * f.val = f.val; rw [e1]; omega

/-- Entry `(p, f)` of what the body computes at point `t` is the layer's output at `(400·t + p, f)`. -/
theorem slab_point (c : Dev nD) (t : Fin cfg0.N) (p : Fin 400) (f : Fin 128) (r : Fin 10000) (hr : r.val = 400 * t.val + p.val) :
    k0_pay1 (F := Ideal) (iblk m c 1 t) (iblk m c 0 t) (iblk m c 2 t) (iblk m c 3 t) (ix2 p f) = layerOutput m c (ix2 r f) := by
  refine (Point.payload_apply (iblk m c 1 t) (iblk m c 0 t) (iblk m c 2 t) (iblk m c 3 t) p f).trans ?_
  show _ = Ideal.logistic (GraphLayer.aggregateFirst _ _ _ r f + _)
  unfold GraphLayer.aggregateFirst
  refine congrArg Ideal.logistic (congrArg₂ (· + ·) (Finset.sum_congr rfl fun k _ => congrArg₂ (· * ·)
    (Finset.sum_congr rfl fun j _ => congrArg₂ (· * ·) ?_ ?_) ?_) ?_)
  · exact slab_apply m c t p j r hr
  · exact features_apply m c t j k
  · exact weights_apply m c t k f
  · exact bias_apply m c t f

/-- Row `p` of the output slab at point `t` is row `400·t + p` of the output array. -/
theorem slab_position (t : Fin cfg0.N) (p : Fin 400) (f : Fin 128) (r : Fin 10000) (hr : r.val = 400 * t.val + p.val) :
    ((cfg0.win 4).blk t).view.emb (ix2 p f) = (ix2 r f : S10000x128.Idx) := by
  obtain ⟨-, -, -, -, -, -, -, -, e0, e1⟩ := block_indices t
  funext a
  apply Fin.ext
  match a with
  | ⟨0, _⟩ => show win0_4.index t (0 : Fin 2) * 400 + 1 * p.val = r.val; rw [e0, hr]; omega
  | ⟨1, _⟩ => show win0_4.index t (1 : Fin 2) * 128 + 1 * f.val = f.val; rw [e1]; omega

/-- What point `t` writes back is slab `t` of the layer's output. -/
theorem flushed_eq (c : Dev nD) (t : Fin cfg0.N) :
    (dats m 0 c).flushed 4 t = ((cfg0.win 4).blk t).view.read (Elt Ideal) (layerOutput m c) := by
  rw [flushed4]
  unfold out0_4
  rw [View.canon_unit_zero zero_offsets]
  simp only [View.ld_unit_zero (S := S400x10000) zero_offsets, View.ld_unit_zero (S := S10000x128) zero_offsets,
    View.ld_unit_zero (S := S128x128) zero_offsets, View.ld_unit_zero (S := S1x128) zero_offsets]
  funext y
  show k0_pay1 (F := Ideal) (iblk m c 1 t) (iblk m c 0 t) (iblk m c 2 t) (iblk m c 3 t) y
    = layerOutput m c (((cfg0.win 4).blk t).view.emb y)
  have ht : t.val < 25 := lt_of_lt_of_eq t.isLt N_0
  have hp : (y 0).val < 400 := (y 0).isLt
  have hf : (y 1).val < 128 := (y 1).isLt
  have hy : y = (ix2 (⟨(y 0).val, hp⟩ : Fin 400) (⟨(y 1).val, hf⟩ : Fin 128) : S400x128.Idx) :=
    funext fun a => Fin.ext (by match a with | ⟨0, _⟩ => rfl | ⟨1, _⟩ => rfl)
  rw [hy]
  exact (slab_point m c t ⟨(y 0).val, hp⟩ ⟨(y 1).val, hf⟩ ⟨400 * t.val + (y 0).val, by omega⟩ rfl).trans
    (congrArg (layerOutput m c)
      (slab_position t ⟨(y 0).val, hp⟩ ⟨(y 1).val, hf⟩ ⟨400 * t.val + (y 0).val, by omega⟩ rfl).symm)

/-- An index of the output array is in point `t`'s slab iff each coordinate is in the slab's range on its axis. -/
theorem mem_slab (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v1).slice (win0_4.rect t)).set ↔ _
  rw [View.set_slice_whole, Rect.mem_set_unit]
  exact Iff.rfl

/-- The slabs tile the output: row `r` lies in the slab of point `r / 400`. -/
theorem slabs_cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  have hlt : (i 0).val / 400 < cfg0.N := by rw [hN]; omega
  obtain ⟨-, -, -, -, -, -, -, -, e0, e1⟩ := block_indices ⟨(i 0).val / 400, hlt⟩
  refine ⟨⟨(i 0).val / 400, hlt⟩, flush0_4 _, ?_⟩
  rw [mem_slab]
  intro a
  match a with
  | ⟨0, _⟩ =>
    show win0_4.index ⟨(i 0).val / 400, hlt⟩ (0 : Fin 2) * 400 ≤ (i 0).val
      ∧ (i 0).val < win0_4.index ⟨(i 0).val / 400, hlt⟩ (0 : Fin 2) * 400 + 400
    rw [e0]
    show (i 0).val / 400 * 400 ≤ (i 0).val ∧ (i 0).val < (i 0).val / 400 * 400 + 400
    omega
  | ⟨1, _⟩ =>
    show win0_4.index ⟨(i 0).val / 400, hlt⟩ (1 : Fin 2) * 128 ≤ (i 1).val
      ∧ (i 1).val < win0_4.index ⟨(i 0).val / 400, hlt⟩ (1 : Fin 2) * 128 + 128
    rw [e1]
    omega

/-- The output array after the run is the layer's output of the argument arrays. -/
theorem final_output (c : Dev nD) : (dats m 0 c).arrAt 4 cfg0.N = layerOutput m c :=
  (dats m 0 c).arrAt_eq_of_cover 4 (layerOutput m c) (fun t _ => flushed_eq m c t) slabs_cover

/-- The kernel's run: the result array ends at the layer's output, the arguments unchanged. -/
theorem run : θ_run defs (onTc (τ := τ) (main (F := Ideal))) ⟨m, fun _ => 0, ρ⟩ fun r => ∀ c : Dev nD,
      r.2.mem ((c : Thread nD τ).loc main_v1) = layerOutput m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_output m c), (h c).2⟩) (run_blocks m ρ)

end Cert.KernelIdeal.Slabs

end
-- ==== Proof.lean ====
/-
  One graph-convolution layer, `sigmoid(A · x · W + b)`, computed two ways.

  The kernel walks the 10000 by 10000 adjacency matrix `A` in 25 slabs of 400 rows. For each slab it aggregates
  first — slab · x, a 400 by 128 block — then applies the 128 by 128 weights, adds the bias to every row and takes
  the sigmoid: row `r`, feature `f` of its result is `sigmoid(∑ₖ (∑ⱼ A(r,j)·x(j,k))·W(k,f) + b(f))`. The reference
  transforms first — x · W — then multiplies by the whole of `A`, adds the bias and spells the sigmoid as
  `1 / (1 + e^(-z))`: `1 / (1 + e^(-(∑ⱼ A(r,j)·(∑ₖ x(j,k)·W(k,f)) + b(f))))`.

  On the extended reals the kernel's two changes of float format are the identity, a matrix product into a zero
  accumulator is the plain sum of products, and the sigmoid IS `1 / (1 + e^(-z))`. What is left between the two
  sides is the bracketing of the triple product, `(A·x)·W = A·(x·W)`. That uses distributivity, which fails at the
  infinities, so it is here that the precondition is used: every entry of `x`, `A` and `W` is finite, hence real,
  and for real entries both bracketings are the same real double sum.

  The frames are the generated ones (the reference's is its generated run with the result dropped). No operation of
  this kernel is rewritten in its idealized form, so the kernel read at the extended reals is its own idealization.
-/
import proofs.«117318_g43928925503630_cont_8to1_b_1634_10_alg».proof.Defs
import proofs.«117318_g43928925503630_cont_8to1_b_1634_10_alg».proof.Proof.Gen.Kernel
import proofs.«117318_g43928925503630_cont_8to1_b_1634_10_alg».proof.Proof.Gen.Kernel.Skeleton
import proofs.«117318_g43928925503630_cont_8to1_b_1634_10_alg».proof.Proof.Gen.Kernel.Launch
import proofs.«117318_g43928925503630_cont_8to1_b_1634_10_alg».proof.Proof.Gen.Kernel.Points
import proofs.«117318_g43928925503630_cont_8to1_b_1634_10_alg».proof.Proof.Gen.Kernel.Frame
import proofs.«117318_g43928925503630_cont_8to1_b_1634_10_alg».proof.Proof.Gen.KernelIdeal
import proofs.«117318_g43928925503630_cont_8to1_b_1634_10_alg».proof.Proof.Gen.KernelIdeal.Skeleton
import proofs.«117318_g43928925503630_cont_8to1_b_1634_10_alg».proof.Proof.Gen.KernelIdeal.Launch
import proofs.«117318_g43928925503630_cont_8to1_b_1634_10_alg».proof.Proof.Gen.KernelIdeal.Points
import proofs.«117318_g43928925503630_cont_8to1_b_1634_10_alg».proof.Proof.Gen.KernelIdeal.Frame
import proofs.«117318_g43928925503630_cont_8to1_b_1634_10_alg».proof.Proof.Gen.ReferenceIdeal
import proofs.«117318_g43928925503630_cont_8to1_b_1634_10_alg».proof.Proof.Gen.Pre_finite_inputs
import proofs.«117318_g43928925503630_cont_8to1_b_1634_10_alg».proof.Proof.Gen.KernelIdeal.Value
import proofs.«117318_g43928925503630_cont_8to1_b_1634_10_alg».proof.Proof.Gen.ReferenceIdeal.Run
import proofs.«117318_g43928925503630_cont_8to1_b_1634_10_alg».proof.Proof.Gen.ReferenceIdeal.Read
import proofs.«117318_g43928925503630_cont_8to1_b_1634_10_alg».proof.Proof.GraphLayerSpec
import proofs.«117318_g43928925503630_cont_8to1_b_1634_10_alg».proof.Proof.FiniteEntries
import proofs.«117318_g43928925503630_cont_8to1_b_1634_10_alg».proof.Proof.ReferenceRows
import proofs.«117318_g43928925503630_cont_8to1_b_1634_10_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten: there is nothing to restate. -/
theorem preserves : Cert.preserves_Kernel_KernelIdeal := trivial

/-- Both programs end with the layer's output of the (agreeing, finite) arguments: the kernel slab by slab with the
    product bracketed `(A·x)·W`, the reference with `A·(x·W)`, equal because the entries are real. -/
theorem algebraic : Cert.algebraic_KernelIdeal_ReferenceIdeal := by
  intro m ρ m' ρ' hpre hagree
  refine ⟨fun c => Cert.KernelIdeal.Slabs.layerOutput m c, Cert.KernelIdeal.Slabs.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hA, hW⟩ := Cert.Pre_finite_inputs.RealEntries.entries_real _ _ _ _ (hpre c)
  rw [Cert.ReferenceIdeal.Read.val_main_v10_eq, (hagree c).1, (hagree c).2.1, (hagree c).2.2.1, (hagree c).2.2.2]
  exact Cert.ReferenceIdeal.Rows.result_eq_output _ _ _ _ hx hA hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
